-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100001x128 : Shape := ⟨2, ![100001, 128]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100001x128 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 100000#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S100001x128 : Shape := ⟨2, ![100001, 128]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S100001x128, .f32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100001x128_S100001x128_0_0 : ∀ a, (![0, 0] : Fin 2 → Nat) a + S100001x128.size a ≤ S100001x128.size a
  gathers_S100001x128_S512x128 : S100001x128.Gathers 0 S512x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S100001x128 : Shape := ⟨2, ![100001, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100001x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100001x128_S16384x1_S16384x128_1_0_n_n_0_1_1128_wf : GatherDims.WF S100001x128 S16384x1 S16384x128 [1] [0] [] [0] [] 1 ![1, 128]

variable [Facts₀]

def gather_S100001x128_S16384x1_S16384x128_1_0_n_n_0_1_1128 : GatherDims S100001x128 S16384x1 S16384x128 where
  offsetDims := [1]
  collapsedSliceDims := [0]
  operandBatchingDims := []
  startIndicesBatchingDims := []
  startIndexMap := [0]
  indexVectorDim := 1
  sliceSizes := ![1, 128]
  wf := gather_S100001x128_S16384x1_S16384x128_1_0_n_n_0_1_1128_wf

class Facts : Prop extends Facts₀ where

variable [Facts]
-- ==== Proof.PreRange.lean ====
/-
  The claim's domain, read back from the printed predicate: the predicate is the conjunction of two `all`-reductions,
  and its second conjunct says that every title `t j`, read as a signed 32-bit word, lies in `[0, 100000]`. For a signed
  word, `0 ≤ t` and `t ≤ 100000` together say that the word's natural-number value is at most `100000`.
-/
import proofs.«211589_g25898652795061_cont_9to1_1519_3_alg».proof.Pre_input_domain
import proofs.«211589_g25898652795061_cont_9to1_1519_3_alg».proof.Proof.Gen.Pre_input_domain
import Idealize.ShloMosaic.Lib.ReduceAll
import Idealize.ShloMosaic.Lib.ValueIdx

namespace Cert.Lookup

open Idealize.ShloMosaic Idealize.ShloMosaic.ValueIdx

/-- A signed 32-bit word between `0` and `100000` (both comparisons signed) has natural-number value at most `100000`. -/
theorem toNat_le_of_signed_range (v : BitVec 32) (h0 : IntOp.cmpi .sge v 0#32 = 1#1) (h1 : IntOp.cmpi .sle v 100000#32 = 1#1) :
    v.toNat ≤ 100000 := by
  have a : (0#32 : BitVec 32).toInt ≤ v.toInt := IntOp.cmpi_sge.1 h0
  have b : v.toInt ≤ (100000#32 : BitVec 32).toInt := IntOp.cmpi_sle.1 h1
  have e0 : (0#32 : BitVec 32).toInt = 0 := by decide
  have e1 : (100000#32 : BitVec 32).toInt = 100000 := by decide
  rw [e0] at a
  rw [e1] at b
  have hv := BitVec.toInt_eq_toNat_cond v
  have hlt := v.isLt
  split at hv <;> omega

/-- On the claim's domain every title is a word in `[0, 100000]`. -/
theorem range_of_pre {F : FTy → Type} [FloatOps F] [Cert.Pre_input_domain.Facts] (t : IVec ⟨1, ![16384]⟩ 32)
    (x : FVec F ⟨2, ![100001, 128]⟩ .f32) (h : Cert.Pre_input_domain.fn (F := F) t x = fun _ => 1#1) :
    ∀ j, (t j).toNat ≤ 100000 := by
  intro j
  have h0 := congrFun h ix0
  dsimp only [Cert.Pre_input_domain.fn] at h0
  -- the predicate is a conjunction; its second conjunct is the `all` over the titles
  have h1 := (IntOp.andi_eq_one.1 h0).2
  haveI : Subsingleton Cert.Pre_input_domain.S_.Idx := ⟨fun a b => funext fun d => d.elim0⟩
  -- an `and`-reduction over every axis that is 1 had a 1 at every index
  have h2 := Host.reduce_andi_all _ _ _ _ _ h1 j
  obtain ⟨ha, hb⟩ := IntOp.andi_eq_one.1 h2
  -- the two broadcast scalars read `0` and `100000` at every index, by unfolding
  exact toNat_le_of_signed_range (t j) ha hb

end Cert.Lookup
-- ==== Proof.Spec.lean ====
/-
  The lookup both programs compute, as one function of the two argument arrays: row `r` of the result is the
  row of the table that the `r`-th title names. A title is a 32-bit word; it is read as a natural number and
  clamped to the table's last row, so that the function is total — on titles in `[0, 100000]` (the domain the
  claim is stated on) the clamp does nothing and the row is exactly row `titles r`.
-/
import Idealize.ShloMosaic.Lib.ValueIdx

noncomputable section

namespace Cert.Lookup

open Idealize.ShloMosaic Idealize.ShloMosaic.ValueIdx

/-- The table row a title names: its value as a natural number, clamped to the last row `100000`. -/
def rowOf (t : BitVec 32) : Fin 100001 := ⟨min t.toNat 100000, by omega⟩

/-- On the claim's domain the clamp is the identity. -/
theorem rowOf_val {t : BitVec 32} (h : t.toNat ≤ 100000) : (rowOf t).val = t.toNat := by
  show min t.toNat 100000 = t.toNat
  omega

/-- The lookup: entry `(r, j)` of the result is entry `(titles r, j)` of the table. -/
def rows {α : Type} (titles : IVec ⟨1, ![16384]⟩ 32) (table : (⟨2, ![100001, 128]⟩ : Shape).Idx → α) :
    (⟨2, ![16384, 128]⟩ : Shape).Idx → α :=
  fun y => table (ix2 (rowOf (titles (ix1 (y 0)))) (y 1))

theorem rows_apply {α : Type} (titles : IVec ⟨1, ![16384]⟩ 32) (table : (⟨2, ![100001, 128]⟩ : Shape).Idx → α)
    (r : Fin 16384) (j : Fin 128) : rows titles table (ix2 r j) = table (ix2 (rowOf (titles (ix1 r))) j) := rfl

end Cert.Lookup

end
-- ==== Proof.RefRun.lean ====
/-
  The reference's run. The reference is `take(table, titles, axis = 0)`: its printed program calls one outlined
  function, which itself calls another (the `where` that wraps negative indices), so its operations are listed here in
  order at the call's buffers, the program is shown to be that straight line, and the library's theorem for a straight
  line of host operations gives every buffer's final contents as the fold of the operations over the launch contents.
  The result buffer's fold is then read at an index `(r, j)`: on titles in `[0, 100000]` no index is negative (the
  `where` keeps the title), every index passes the bounds test (the fill value is never selected), and the gather reads
  row `titles r` of the table, which is the shared specification `Cert.Lookup.rows`.
-/
import proofs.«211589_g25898652795061_cont_9to1_1519_3_alg».proof.ReferenceIdeal
import proofs.«211589_g25898652795061_cont_9to1_1519_3_alg».proof.Proof.Gen.ReferenceIdeal
import proofs.«211589_g25898652795061_cont_9to1_1519_3_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Reduce

noncomputable section

namespace Cert.Lookup.Ref

open Cert.ReferenceIdeal Cert.ReferenceIdeal.Facts₀ Idealize.ShloMosaic Idealize.ShloMosaic.TcCoe Idealize.SL.Sem
open Idealize.ShloMosaic.StableHlo Idealize.ShloMosaic.ValueIdx

variable {F : FTy → Type} [FloatOps F]

/-! ## The program as a straight line -/

/-- The reference's 23 operations in order: the outlined `take`'s, with the one operation of the `where` it calls in
    its place (the seventh), each over the buffers of the call's record. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100001#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 100000#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S100001x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- The program is that straight line: the two functions' definitions unfolded at their calls, both sides are one chain
    of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of the reference terminates, and every buffer ends at
    the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## Words: a title in `[0, 100000]` under the reference's three signed comparisons -/

/-- A 32-bit word whose natural-number value is at most `100000` is that number as a signed integer. -/
theorem toInt_of_le {v : BitVec 32} (h : v.toNat ≤ 100000) : v.toInt = (v.toNat : Int) := by
  rw [BitVec.toInt_eq_toNat_cond]
  split <;> omega

/-- Such a word is not negative: the `where` keeps it. -/
theorem slt_zero_of_le {v : BitVec 32} (h : v.toNat ≤ 100000) : IntOp.cmpi .slt v 0#32 = 0#1 := by
  refine eq_zero_of_ne_one fun e => ?_
  have a : v.toInt < (0#32 : BitVec 32).toInt := IntOp.cmpi_slt.1 e
  have e0 : (0#32 : BitVec 32).toInt = 0 := by decide
  rw [e0, toInt_of_le h] at a
  omega

/-- Such a word passes the lower bounds test … -/
theorem sge_zero_of_le {v : BitVec 32} (h : v.toNat ≤ 100000) : IntOp.cmpi .sge v 0#32 = 1#1 := by
  refine IntOp.cmpi_sge.2 ?_
  have e0 : (0#32 : BitVec 32).toInt = 0 := by decide
  rw [e0, toInt_of_le h]
  omega

/-- … and the upper one. -/
theorem sle_max_of_le {v : BitVec 32} (h : v.toNat ≤ 100000) : IntOp.cmpi .sle v 100000#32 = 1#1 := by
  refine IntOp.cmpi_sle.2 ?_
  have e1 : (100000#32 : BitVec 32).toInt = 100000 := by decide
  rw [e1, toInt_of_le h]
  omega

/-! ## An `and`-reduction of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A host `reduce` by `and` from the initial value 1 of an array of ones is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun n _ => hx n

/-! ## The gather at an index -/

/-- The reference's gather — operand `[100001, 128]`, start indices `[16384, 1]`, axis 0 collapsed, axis 1 the offset
    axis with slices of the full 128 — read at `(r, j)`: the operand at row `idx[r, 0]`, read signed and clamped into
    `[0, 100000]`, column `j`. -/
theorem gather_apply {α : Type} {w : Nat} (x : S100001x128.Idx → α) (idx : IVec S16384x1 w) (r : Fin 16384) (j : Fin 128) :
    Host.gather gather_S100001x128_S16384x1_S16384x128_1_0_n_n_0_1_1128 x idx (ix2 r j)
      = x (ix2 (⟨min (idx (ix2 r (0 : Fin 1))).toInt.toNat 100000, by omega⟩ : Fin 100001) j) := by
  unfold Host.gather
  congr 1
  funext a
  refine Fin.ext ?_
  show gather_S100001x128_S16384x1_S16384x128_1_0_n_n_0_1_1128.start (ix2 r j) idx a
      + gather_S100001x128_S16384x1_S16384x128_1_0_n_n_0_1_1128.batchCoord (ix2 r j) a
      + gather_S100001x128_S16384x1_S16384x128_1_0_n_n_0_1_1128.offCoord (ix2 r j) a = _
  rw [GatherDims.batchCoord_eq_zero _ _ _ List.not_mem_nil]
  match a with
  | ⟨0, _⟩ =>
    -- the collapsed axis: the clamped start index, no offset
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S100001x128_S16384x1_S16384x128_1_0_n_n_0_1_1128.startIndexMap from
      List.mem_singleton.mpr rfl)]
    have hsi : gather_S100001x128_S16384x1_S16384x128_1_0_n_n_0_1_1128.siIdx (ix2 r j)
        ⟨List.idxOf (⟨0, by decide⟩ : Fin 2) gather_S100001x128_S16384x1_S16384x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: no start index, the result's column
    have h1 : (⟨1, by decide⟩ : Fin 2) ∉ gather_S100001x128_S16384x1_S16384x128_1_0_n_n_0_1_1128.startIndexMap :=
      fun h => absurd (List.mem_singleton.mp h) (by decide)
    unfold GatherDims.start
    rw [dif_neg h1, Nat.add_zero, Nat.zero_add]
    rfl

/-- The same, with the start index's word named: the row is that word read signed and clamped. -/
theorem gather_apply_of_eq {α : Type} {w : Nat} (x : S100001x128.Idx → α) (idx : IVec S16384x1 w) (r : Fin 16384) (j : Fin 128)
    (v : BitVec w) (hv : idx (ix2 r (0 : Fin 1)) = v) :
    Host.gather gather_S100001x128_S16384x1_S16384x128_1_0_n_n_0_1_1128 x idx (ix2 r j)
      = x (ix2 (⟨min v.toInt.toNat 100000, by omega⟩ : Fin 100001) j) := by
  subst hv
  exact gather_apply x idx r j

/-! ## The result as one function of the two arguments -/

/-- The indices after the `where`: a title, with `100001` added where it is negative. -/
def wrapped (t : IVec S16384 32) : IVec S16384 32 :=
  select (cmpi .slt t (broadcastInDim S16384 ![] bcast_S_S16384 (constantI S_ 32 0#32)))
    (addi t (broadcastInDim S16384 ![] bcast_S_S16384 (constantI S_ 32 100001#32))) t

/-- The same indices as a column `[16384, 1]`: the gather's start indices. -/
def column (t : IVec S16384 32) : IVec S16384x1 32 :=
  broadcastInDim S16384x1 ![0] bcast_S16384_S16384x1_0 (wrapped t)

/-- The bounds test per row: `0 ≤ index ≤ 100000`, reduced by `and` over the column's unit axis. -/
def inBounds (t : IVec S16384 32) : IVec S16384 1 :=
  Host.reduce IntOp.andi
    (andi (cmpi .sge (column t) (broadcastInDim S16384x1 ![] bcast_S_S16384x1 (constantI S_ 32 0#32)))
      (cmpi .sle (column t) (broadcastInDim S16384x1 ![0, 1] bcast_S1x1_S16384x1_0_1
        (broadcastInDim S1x1 ![1] bcast_S1_S1x1_1 (constantI S1 32 100000#32)))))
    (constantI S_ 1 1#1) reducesTo_S16384x1_S16384_d1 h_S_

/-- The reference's result: the gathered rows where the row's index is in bounds, the fill value elsewhere. -/
def out (t : IVec S16384 32) (x : FVec F S100001x128 .f32) : FVec F S16384x128 .f32 :=
  select (broadcastInDim S16384x128 ![0] bcast_S16384_S16384x128_0 (inBounds t))
    (Host.gather gather_S100001x128_S16384x1_S16384x128_1_0_n_n_0_1_1128 x (column t))
    (broadcastInDim S16384x128 ![] bcast_S_S16384x128 (constant S_ .f32 0x7FC00000#32))

attribute [local irreducible] Host.reduce Host.gather in
set_option maxRecDepth 8192 in
/-- The fold at the result buffer is `out` of the two arguments' contents, by computation: each operation's result
    decides whether the buffer read is the one it writes, and the typed references' casts are the identity at these
    literal references. The reduction and the gather are kept folded meanwhile (the equation never looks inside them). -/
theorem out_eq (V : Valuation τ sig (Elt F)) :
    after ops V (main_v0 : DevRef τ sig) = out (V (main_arg0 : DevRef τ sig)) (V (main_arg1 : DevRef τ sig)) := by
  after_results
  rfl

/-- No operation writes the titles' buffer … -/
theorem arg0_eq (V : Valuation τ sig (Elt F)) : after ops V (main_arg0 : DevRef τ sig) = V (main_arg0 : DevRef τ sig) := by
  simp only [after_cons, after_nil]
  rfl

/-- … nor the table's. -/
theorem arg1_eq (V : Valuation τ sig (Elt F)) : after ops V (main_arg1 : DevRef τ sig) = V (main_arg1 : DevRef τ sig) := by
  simp only [after_cons, after_nil]
  rfl

/-! ## The result at an index, on titles in `[0, 100000]` -/

/-- No title is negative, so the `where` keeps every title. -/
theorem wrapped_eq (t : IVec S16384 32) (h : ∀ i, (t i).toNat ≤ 100000) : wrapped t = t := by
  funext i
  show Scalar.select (IntOp.cmpi .slt (t i) 0#32) _ (t i) = t i
  rw [slt_zero_of_le (h i), select_zero]

/-- The column's entry in row `r` is the index of row `r`. -/
theorem column_apply (t : IVec S16384 32) (r : Fin 16384) (c : Fin 1) : column t (ix2 r c) = wrapped t (ix1 r) :=
  broadcastInDim_apply (s := S16384) (t := S16384x1) (![0] : Fin 1 → Fin S16384x1.rank) bcast_S16384_S16384x1_0 (wrapped t)
    (ix2 r c) (ix1 r) (by
      intro a
      match a with
      | ⟨0, _⟩ =>
        show r.val = if (16384 : ℕ) = 1 then 0 else r.val
        rw [if_neg (by decide)])

/-- Every row passes the bounds test. -/
theorem inBounds_apply (t : IVec S16384 32) (h : ∀ i, (t i).toNat ≤ 100000) (i : S16384.Idx) : inBounds t i = 1#1 := by
  refine reduce_andi_of_all_one _ _ _ _ (fun y => ?_) rfl i
  obtain ⟨r, c, rfl⟩ : ∃ (r : Fin 16384) (c : Fin 1), y = ix2 r c := ⟨y 0, y 1, eq_ix2 y⟩
  show IntOp.andi (IntOp.cmpi .sge (column t (ix2 r c)) 0#32) (IntOp.cmpi .sle (column t (ix2 r c)) 100000#32) = 1#1
  rw [column_apply, wrapped_eq t h, sge_zero_of_le (h _), sle_max_of_le (h _)]
  rfl

/-- A title in `[0, 100000]`, read signed and clamped into `[0, 100000]`, is the row the specification names. -/
theorem clamp_eq_rowOf {v : BitVec 32} (h : v.toNat ≤ 100000) (p : min v.toInt.toNat 100000 < 100001) :
    (⟨min v.toInt.toNat 100000, p⟩ : Fin 100001) = rowOf v := by
  refine Fin.ext ?_
  show min v.toInt.toNat 100000 = min v.toNat 100000
  have := toInt_of_le h
  omega

/-- The result at `(r, j)`: entry `(titles r, j)` of the table. -/
theorem out_apply (t : IVec S16384 32) (x : FVec F S100001x128 .f32) (h : ∀ i, (t i).toNat ≤ 100000) (r : Fin 16384) (j : Fin 128) :
    out t x (ix2 r j) = x (ix2 (rowOf (t (ix1 r))) j) := by
  have e := broadcastInDim_apply (s := S16384) (t := S16384x128) (![0] : Fin 1 → Fin S16384x128.rank) bcast_S16384_S16384x128_0
    (inBounds t) (ix2 r j) (ix1 r) (by
    intro a
    match a with
    | ⟨0, _⟩ =>
      show r.val = if (16384 : ℕ) = 1 then 0 else r.val
      rw [if_neg (by decide)])
  unfold out
  rw [select_apply, e, inBounds_apply t h, select_one,
    gather_apply_of_eq x (column t) r j (t (ix1 r)) (by rw [column_apply, wrapped_eq t h]), clamp_eq_rowOf (h _)]

/-- On titles in `[0, 100000]` the reference's result is the lookup. -/
theorem out_rows (t : IVec S16384 32) (x : FVec F S100001x128 .f32) (h : ∀ i, (t i).toNat ≤ 100000) :
    out t x = Cert.Lookup.rows t x := by
  funext y
  obtain ⟨r, j, rfl⟩ : ∃ (r : Fin 16384) (j : Fin 128), y = ix2 r j := ⟨y 0, y 1, eq_ix2 y⟩
  rw [out_apply t x h, Cert.Lookup.rows_apply]

/-! ## The run -/

/-- On every device, from any memory with zero counters whose titles lie in `[0, 100000]`: every weakly fair execution
    of the reference terminates with the result buffer at the lookup of the two arguments' launch contents, and the
    arguments unchanged. -/
theorem run (m : (ℓ : Loc Cert.ReferenceIdeal.nD Cert.ReferenceIdeal.τ Cert.ReferenceIdeal.sig) → Buf (Elt F) ℓ)
    (g : Dev Cert.ReferenceIdeal.nD → PrngReg)
    (hr : ∀ (c : Dev Cert.ReferenceIdeal.nD) j,
      (m ((c.tc : Thread Cert.ReferenceIdeal.nD Cert.ReferenceIdeal.τ).loc Cert.ReferenceIdeal.main_arg0) j).toNat ≤ 100000) :
    θ_run (Cert.ReferenceIdeal.defs (F := F)) (onTc (τ := Cert.ReferenceIdeal.τ) (Cert.ReferenceIdeal.main (F := F)))
      ⟨m, fun _ => 0, g⟩ (fun r => ∀ c : Dev Cert.ReferenceIdeal.nD,
        r.2.mem ((c.tc : Thread Cert.ReferenceIdeal.nD Cert.ReferenceIdeal.τ).loc Cert.ReferenceIdeal.main_v0)
            = Cert.Lookup.rows (m ((c.tc : Thread _ _).loc Cert.ReferenceIdeal.main_arg0))
                (m ((c.tc : Thread _ _).loc Cert.ReferenceIdeal.main_arg1))
        ∧ r.2.mem ((c.tc : Thread Cert.ReferenceIdeal.nD Cert.ReferenceIdeal.τ).loc Cert.ReferenceIdeal.main_arg0)
            = m ((c.tc : Thread _ _).loc Cert.ReferenceIdeal.main_arg0)
        ∧ r.2.mem ((c.tc : Thread Cert.ReferenceIdeal.nD Cert.ReferenceIdeal.τ).loc Cert.ReferenceIdeal.main_arg1)
            = m ((c.tc : Thread _ _).loc Cert.ReferenceIdeal.main_arg1)) :=
  (θ_run defs _ _).mono (fun _ h c =>
      ⟨(h c main_v0).trans ((out_eq _).trans (out_rows _ _ (hr c))),
        (h c main_arg0).trans (arg0_eq _),
        (h c main_arg1).trans (arg1_eq _)⟩)
    (run_fold m g)

end Cert.Lookup.Ref

end
-- ==== Proof.KernelValue.lean ====
/-
  What one tile's three copies leave in its block of the result.

  The tile at SparseCore `c`, subcore `i` works on block `w = 2 i + c`: it fetches titles `512 w … 512 w + 511`
  into its list, gathers into its row buffer the table rows those titles name — entry `(p, j)` of the buffer is entry
  `(titles (512 w + p), j)` of the table, every title at most 100000 and so a row of the table — and writes the buffer
  to rows `512 w … 512 w + 511` of the result. Entry `(r, j)` of that block is therefore `table (titles r, j)`: the
  lookup, on the block. Pure data movement: the statement holds for every reading of the float words.
-/
import proofs.«211589_g25898652795061_cont_9to1_1519_3_alg».proof.Kernel
import proofs.«211589_g25898652795061_cont_9to1_1519_3_alg».proof.Proof.Gen.Kernel
import proofs.«211589_g25898652795061_cont_9to1_1519_3_alg».proof.Proof.Spec
import Idealize.ShloMosaic.Lib.SparseCore.Stream
import Idealize.ShloMosaic.Lib.Writes
import Idealize.ShloMosaic.Lib.ValueIdx

noncomputable section

namespace Cert.Proof.KernelRun

open Cert.Kernel Cert.Kernel.Gen

open Idealize.ShloMosaic
open Idealize.ShloMosaic.SparseCore (S V T)
open Idealize.ShloMosaic.ValueIdx

variable {F : FTy → Type}

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100001x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

abbrev cV (L : grid0.Coords) : Fin τ.nSC := (L 0).castLE hcore0
abbrev jV (L : grid0.Coords) : Fin τ.nSub := (L 1).castLE hsub0

abbrev iblkK (L : grid0.Coords) : Rect S16384 := Rect.unit (s := S16384) (k0_off1 L) S512.size (k0_off1_inb L)
abbrev oblkK (L : grid0.Coords) : Rect S16384x128 := Rect.unit (s := S16384x128) (k0_off2 L) S512x128.size (k0_off2_inb L)
/-- The tile's block of the titles and of the result, and the whole table, as the task addresses them. -/
abbrev iBlkK (L : grid0.Coords) : Memref sig .scVector .hbm S512 .i32 := (iV).slice (iblkK L) (fun _ => rfl)
abbrev oBlkK (L : grid0.Coords) : Memref sig .scVector .hbm S512x128 .f32 := (oV).slice (oblkK L) (fun _ => rfl)
abbrev xAllK : Memref sig .scVector .hbm S100001x128 .f32 := (xV).slice (Rect.unit (s := S100001x128) ![0, 0] S100001x128.size inb_S100001x128_S100001x128_0_0) (fun _ => rfl)

/-! ## What a tile's three copies leave in its block of the result -/

section Value

/-- The whole rectangle places an index at itself. -/
theorem whole_emb {s : Shape} (j : (Rect.whole s).shape.Idx) : (Rect.whole s).emb j = j :=
  funext fun a => Fin.ext (by simp [Rect.whole])

variable {sig' : RefSig} {κ : Kind} {sp : Space} {s : Shape} {e : EltTy} {Val : EltTy → Type}

/-- A buffer written whole through a view reads back, through that view, as what was written. -/
theorem read_writes_whole (v : View sig' κ sp s e) (f : v.ty.Contents Val) (w : s.Idx → Val e) (x : s.Idx) :
    v.read Val (v.writes Val f [⟨Rect.whole s, w⟩]) x = w x := by
  have h := View.read_writes_cons_emb v f (Rect.whole s) w [] x
  rwa [whole_emb] at h

end Value

variable (d : Dev nD) (L : grid0.Coords)

/-- Entry `(p, j)` of the tile's block of the result, after the fetch of the tile's titles, the gather of the rows they
    name and the write-out, is entry `j` of the table row that title `512 (2 i + c) + p` names: the looked-up rows. -/
theorem block_value (ti : Buf (Elt F) (iLoc d)) (tb : Buf (Elt F) (xLoc d)) (o0 : Buf (Elt F) (oLoc d))
    (hpre : ∀ j, (ti j).toNat ≤ 100000)
    (fs : Buf (Elt F) ((V d (cV L) (jV L)).loc cc0_scratch0)) (fr : Buf (Elt F) ((V d (cV L) (jV L)).loc cc0_scratch1))
    (hn : S512.numel = S512x128.size gathers_S100001x128_S512x128.axis')
    (hin : ∀ x, ((sV).view.read (Elt F) (View.write (Elt F) (sV).view fs ((iBlkK L).view.read (Elt F) ti) Finset.univ) x).toNat
        < S100001x128.size gathers_S100001x128_S512x128.axis) :
    ∀ y ∈ (oBlkK L).view.set,
      (oBlkK L).view.writes (Elt F) o0 [⟨Rect.whole S512x128,
          (rV).view.read (Elt F) ((rV).view.writes (Elt F) fr [⟨Rect.whole S512x128,
            SparseCore.gatherPayload gathers_S100001x128_S512x128 ((xAllK).view.read (Elt F) tb)
              (SparseCore.rows ((sV).view.read (Elt F) (View.write (Elt F) (sV).view fs ((iBlkK L).view.read (Elt F) ti) Finset.univ)) hn hin)⟩])⟩] y
        = Cert.Lookup.rows ti tb y := by
  intro y hy
  obtain ⟨y', -, rfl⟩ := Finset.mem_map.mp hy
  have e1 : ∀ (f : Buf (Elt F) (oLoc d)), f ((oBlkK L).view.emb y') = (oBlkK L).view.read (Elt F) f y' :=
    fun f => ((View.read_apply _ _).trans (cast_eq _ _)).symm
  refine (e1 _).trans ?_
  rw [read_writes_whole]
  refine (read_writes_whole (Val := Elt F) (rV).view fr _ y').trans ?_
  show (xAllK).view.read (Elt F) tb (gathers_S100001x128_S512x128.idx _ y') = _
  refine ((View.read_apply _ _).trans (cast_eq _ _)).trans ?_
  show tb _ = tb _
  congr 1
  funext a
  refine Fin.ext ?_
  match a with
  | ⟨0, _⟩ =>
    have hj : ∀ k' : Fin S512.numel, ((S512.rowMajor.symm k') 0).val = k'.val := fun k' => by
      have := Shape.rowMajor_val_one (S512.rowMajor.symm k')
      rw [Equiv.apply_symm_apply] at this
      exact this.symm
    have hoffs : ∀ j, (sV).view.read (Elt F) (View.write (Elt F) (sV).view fs ((iBlkK L).view.read (Elt F) ti) Finset.univ) j
        = ti ((iBlkK L).view.emb j) := fun j => by
      rw [View.write_whole_univ]
      exact (View.read_apply _ _).trans (cast_eq _ _)
    show (![0, 0] : Fin 2 → Nat) 0 + 1 * (gathers_S100001x128_S512x128.idx _ y' gathers_S100001x128_S512x128.axis).val = (Lookup.rowOf _).val
    rw [Shape.Gathers.idx_axis, Lookup.rowOf_val (hpre _)]
    show (![0, 0] : Fin 2 → Nat) 0 + 1 * BitVec.toNat ((sV).view.read (Elt F) (View.write (Elt F) (sV).view fs ((iBlkK L).view.read (Elt F) ti) Finset.univ)
      (S512.rowMajor.symm ((y' gathers_S100001x128_S512x128.axis').cast hn.symm))) = _
    rw [hoffs]
    have hidx : (iBlkK L).view.emb (S512.rowMajor.symm ((y' gathers_S100001x128_S512x128.axis').cast hn.symm)) = ix1 ((oBlkK L).view.emb y' 0) := by
      funext b
      refine Fin.ext ?_
      match b with
      | ⟨0, _⟩ =>
        show k0_off1 L 0 + 1 * ((S512.rowMajor.symm ((y' gathers_S100001x128_S512x128.axis').cast hn.symm)) 0).val = k0_off2 L 0 + 1 * (y' 0).val
        rw [hj, k0_off1_eq, k0_off2_eq]
        rfl
    rw [hidx]
    show 0 + 1 * _ = _
    rw [Nat.zero_add, Nat.one_mul]
    rfl
  | ⟨1, _⟩ =>
    show (![0, 0] : Fin 2 → Nat) 1 + 1 * (gathers_S100001x128_S512x128.idx _ y' 1).val = (k0_off2 L 1 + 1 * (y' 1).val)
    rw [Shape.Gathers.idx_of_ne _ _ _ 1 (by decide), k0_off2_eq]
    rfl

end Cert.Proof.KernelRun

end
-- ==== Proof.KernelRun.lean ====
/-
  The program's run: every weakly fair execution ends, faults nowhere, leaves the titles and the table as they were,
  and leaves in the result array the looked-up rows, `result (r, j) = table (titles r, j)`.

  Thirty-two tiles — two SparseCores, sixteen subcores each — run the same three copies at once, tile `(c, i)` on
  block `2 i + c` of the 32 blocks of 512 rows the titles and the result are cut into. The blocks are disjoint and
  cover both arrays, so each tile owns its block of the titles and of the result outright; the table is read by all,
  each tile holding one of 32 shares of it. A tile waits only on its own three semaphores, each for the copy it has
  just started, so no tile waits on another and nothing can block. A gather stops at a title that names no row: the
  claim's domain, every title in `[0, 100000]`, rules that out. The result's blocks, each at the looked-up rows
  (the value lemma of the companion module), join to the whole array at the looked-up rows.
-/
import proofs.«211589_g25898652795061_cont_9to1_1519_3_alg».proof.Kernel
import proofs.«211589_g25898652795061_cont_9to1_1519_3_alg».proof.Proof.Gen.Kernel
import proofs.«211589_g25898652795061_cont_9to1_1519_3_alg».proof.Proof.Gen.Kernel.Skeleton
import proofs.«211589_g25898652795061_cont_9to1_1519_3_alg».proof.Proof.Spec
import proofs.«211589_g25898652795061_cont_9to1_1519_3_alg».proof.Proof.KernelValue
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The looked-up rows, as the contents of the result array. -/
abbrev G (d : Dev nD) : Buf (Elt F) (oLoc d) := Cert.Lookup.rows (m (iLoc d)) (m (xLoc d))

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100001x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

/-! ## The thirty-two blocks

The titles and the result are cut along their first axis into 32 blocks of 512 rows; the tile at
SparseCore `c`, subcore `i` works on block `2 i + c`. -/

theorem idiv : 32 ∣ S16384.size 0 := ⟨512, rfl⟩
theorem odiv : 32 ∣ S16384x128.size 0 := ⟨512, rfl⟩
abbrev iblk (w : Fin 32) : Rect S16384 := Rect.part (s := S16384) (a₀ := 0) idiv w
abbrev oblk (w : Fin 32) : Rect S16384x128 := Rect.part (s := S16384x128) (a₀ := 0) odiv w
abbrev iBlkSet (w : Fin 32) : Finset S16384.Idx := ((iV).view.slice (iblk w)).set
abbrev oBlkSet (w : Fin 32) : Finset S16384x128.Idx := ((oV).view.slice (oblk w)).set

/-- The block of the tile at SparseCore `c`, subcore `i`. -/
def wid (c : Fin 2) (i : Fin 16) : Fin 32 := ⟨2 * i.val + c.val, by omega⟩

/-- Tile `(c, i)`'s share of the table: the full share cut in two for the SparseCores, each half in sixteen. -/
abbrev xq (c : Fin 2) (i : Fin 16) : PosShare TreeShare :=
  pieceOf (pieceOf fullShare 2 (by decide) c) 16 (by decide) i

variable [FloatOps F]

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iBlkPts (d : Dev nD) (w : Fin 32) : sProp 𝕄 := iLoc d ↦[iBlkSet w]{fullShare} m (iLoc d)
abbrev xShPts (d : Dev nD) (c : Fin 2) (i : Fin 16) : sProp 𝕄 := xLoc d ↦{xq c i} m (xLoc d)
abbrev oBlkPts (d : Dev nD) (w : Fin 32) (f : Buf (Elt F) (oLoc d)) : sProp 𝕄 := oLoc d ↦[oBlkSet w]{fullShare} f

/-- What a tile is handed and what it hands back: its block of the titles, its share of the table, and its block
    of the result — at the launch contents going in, at the looked-up rows coming out. -/
abbrev goRes (d : Dev nD) (c : Fin 2) (i : Fin 16) : sProp 𝕄 :=
  iprop(iBlkPts m d (wid c i) ∗ xShPts m d c i ∗ oBlkPts d (wid c i) (m (oLoc d)))
abbrev tdRes (d : Dev nD) (c : Fin 2) (i : Fin 16) : sProp 𝕄 :=
  iprop(iBlkPts m d (wid c i) ∗ xShPts m d c i ∗ oBlkPts d (wid c i) (G m d))

/-- A SparseCore is handed its sixteen tiles' resources, and hands them back. -/
def P : (K (F := F)).Pay (nD := nD) (Val := Elt F) (Name := ℕ) (U := UU) where
  st := fun q d c => match q with | 0 => bigSep Finset.univ fun i : Fin 16 => goRes m d (Fin.cast nCore_zero c) i
  dn := fun q d c => match q with | 0 => bigSep Finset.univ fun i : Fin 16 => tdRes m d (Fin.cast nCore_zero c) i
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goRes m d (Fin.cast nCore_zero c) i))
  dn q d c := match q with
    | 0 => (inferInstance : BI.Storable (upEmb : UEmb _ 𝕄) (bigSep Finset.univ fun i : Fin 16 => tdRes m d (Fin.cast nCore_zero c) i))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

/-- What the proof asks of the launch memory: every title names a row of the table. -/
def PreOK : Prop := ∀ (d : Dev nD) (j : S16384.Idx), (m (iLoc d) j).toNat ≤ 100000

/-! ## One tile's task -/

section Tile

variable (d : Dev nD) (L : grid0.Coords)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

omit [FloatOps F] in
/-- The task's offset `512 · (2 i + c)` is block `2 i + c` of the cut into 32. -/
theorem iblkK_eq : iblkK L = iblk (wid (cL L) (jL L)) := by
  unfold iblkK iblk Rect.part Rect.block
  congr 1 <;> funext a
  · rw [k0_off1_eq]
    match a with
    | 0 => simp [Shape.partIx, Shape.partSize, wid]; omega
  · match a with
    | 0 => simp [Shape.partSize]
omit [FloatOps F] in
theorem oblkK_eq : oblkK L = oblk (wid (cL L) (jL L)) := by
  unfold oblkK oblk Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_iBlkK : (iBlkK L).view.set = iBlkSet (wid (cL L) (jL L)) := by
  show ((iV).view.slice (iblkK L)).set = ((iV).view.slice (iblk (wid (cL L) (jL L)))).set
  rw [iblkK_eq]
omit [FloatOps F] in
theorem set_oBlkK : (oBlkK L).view.set = oBlkSet (wid (cL L) (jL L)) := by
  show ((oV).view.slice (oblkK L)).set = ((oV).view.slice (oblk (wid (cL L) (jL L)))).set
  rw [oblkK_eq]

omit [FloatOps F] in
theorem pts_iBlkK (f : Buf (Elt F) (iLoc d)) :
    ((iBlkK L).view.loc (V d (cV L) (jV L)) ↦[(iBlkK L).view.set]{fullShare} f : sProp 𝕄) = iLoc d ↦[iBlkSet (wid (cL L) (jL L))]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[oBlkSet (wid (cL L) (jL L))]{fullShare} f := by
  rw [set_oBlkK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The rows the stream reads are rows of the table: what the title fetch landed in the list's scratch is the tile's
    block of the titles, each at most 100000. -/
theorem inb_of_pre (hpre : PreOK m) (fs : Buf (Elt F) ((V d (cV L) (jV L)).loc cc0_scratch0)) (pay : S512.Idx → Elt F .i32)
    (hpay : pay = (iBlkK L).view.read (Elt F) (m (iLoc d))) :
    ∀ x, ((sV).view.read (Elt F) (View.write (Elt F) (sV).view fs pay Finset.univ) x).toNat < S100001x128.size gathers_S100001x128_S512x128.axis := by
  subst hpay; intro x
  rw [View.write_whole_univ]
  simp only [Memref.view_whole, View.read_whole]
  rw [show ∀ j, (iBlkK L).view.read (Elt F) (m (iLoc d)) j = m (iLoc d) ((iBlkK L).view.emb j) from fun j => (View.read_apply _ _).trans (cast_eq _ _)]
  exact Nat.lt_succ_of_le (hpre d _)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goRes m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            sV (Memref.isWhole_whole _) rV (Memref.isWhole_whole _) cc0_scratch2 cc0_scoped0 cc0_scoped1)
          fun _ => iprop(tdRes m d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  have hin := fun fs => inb_of_pre m d L hpre fs _ rfl
  sl_exec
  sl_step
  isplitl [Hi' Hx' Ho']
  · isplitl [Hi']; · iapply (Entails.of_eq (pts_iBlkK (F := F) d L _)); iexact Hi'
    isplitl [Hx']; · iexact Hx'
    iapply (Entails.of_eq ((pointsTo_congr (ℓ := (oBlkK L).view.loc (V d (cV L) (jV L))) (I := (oBlkK L).view.set) (q := fullShare) (g := G m d)
        (block_value d L (m (iLoc d)) (m (xLoc d)) (m (oLoc d)) (hpre d) fs fr _ (hin fs))).trans (pts_oBlkK (F := F) d L (G m d))))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The blocks split and join; the shares of the table -/

/-- Tiles and blocks correspond one to one: block `w` is the tile at SparseCore `w mod 2`, subcore `w / 2`. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

omit [FloatOps F] in
theorem iBlkSet_eq (w : Fin 32) : iBlkSet w = (iblk w).set := by
  show ((View.whole (main_arg0_scv : Ref sig .scVector)).slice (iblk w)).set = _
  rw [View.set_slice]; exact Finset.map_refl
omit [FloatOps F] in
theorem oBlkSet_eq (w : Fin 32) : oBlkSet w = (oblk w).set := by
  show ((View.whole (main_v0_scv : Ref sig .scVector)).slice (oblk w)).set = _
  rw [View.set_slice]; exact Finset.map_refl
omit [FloatOps F] in
theorem iblks_disjoint : ∀ i ∈ (Finset.univ : Finset (Fin 32)), ∀ j ∈ (Finset.univ : Finset (Fin 32)), i ≠ j → Disjoint (iBlkSet i) (iBlkSet j) :=
  fun i _ j _ h => by rw [iBlkSet_eq, iBlkSet_eq]; exact Rect.part_disjoint idiv h
omit [FloatOps F] in
theorem oblks_disjoint : ∀ i ∈ (Finset.univ : Finset (Fin 32)), ∀ j ∈ (Finset.univ : Finset (Fin 32)), i ≠ j → Disjoint (oBlkSet i) (oBlkSet j) :=
  fun i _ j _ h => by rw [oBlkSet_eq, oBlkSet_eq]; exact Rect.part_disjoint odiv h
omit [FloatOps F] in
theorem iblks_cover : (Finset.univ : Finset (Fin 32)).biUnion iBlkSet = Finset.univ :=
  (Finset.biUnion_congr rfl fun i _ => iBlkSet_eq i).trans (Rect.biUnion_part idiv)
omit [FloatOps F] in
theorem oblks_cover : (Finset.univ : Finset (Fin 32)).biUnion oBlkSet = Finset.univ :=
  (Finset.biUnion_congr rfl fun i _ => oBlkSet_eq i).trans (Rect.biUnion_part odiv)

omit [FloatOps F] in
/-- A family over the 32 blocks is the family over the SparseCores and their tiles. -/
theorem bigSep_blocks (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

omit [FloatOps F] in
theorem iPts_blks (d : Dev nD) (f : Buf (Elt F) (iLoc d)) :
    (iLoc d ↦{fullShare} f : sProp 𝕄) = bigSep Finset.univ fun c : Fin 2 => bigSep Finset.univ fun i : Fin 16 => iLoc d ↦[iBlkSet (wid c i)]{fullShare} f := by
  rw [← bigSep_blocks (F := F) (fun w => iLoc d ↦[iBlkSet w]{fullShare} f), ← pointsTo_biUnion Finset.univ (ℓ := iLoc d) iBlkSet iblks_disjoint, iblks_cover]; try rfl
omit [FloatOps F] in
theorem oPts_blks (d : Dev nD) (f : Buf (Elt F) (oLoc d)) :
    (oLoc d ↦{fullShare} f : sProp 𝕄) = bigSep Finset.univ fun c : Fin 2 => bigSep Finset.univ fun i : Fin 16 => oLoc d ↦[oBlkSet (wid c i)]{fullShare} f := by
  rw [← bigSep_blocks (F := F) (fun w => oLoc d ↦[oBlkSet w]{fullShare} f), ← pointsTo_biUnion Finset.univ (ℓ := oLoc d) oBlkSet oblks_disjoint, oblks_cover]; try rfl
omit [FloatOps F] in
theorem xPts_shares (d : Dev nD) (f : Buf (Elt F) (xLoc d)) :
    (xLoc d ↦{fullShare} f : sProp 𝕄) = bigSep Finset.univ fun c : Fin 2 => bigSep Finset.univ fun i : Fin 16 => xLoc d ↦{xq c i} f := by
  rw [pointsTo_piecesOf Finset.univ f (o := 2) (by decide) fullShare]
  exact bigSep_congr fun c _ => pointsTo_piecesOf Finset.univ f (o := 16) (by decide) _

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- Three families over cores and tiles, side by side, are the three families apart. -/
theorem bigSep_three (A B C : Fin 2 → Fin 16 → sProp 𝕄) :
    (bigSep Finset.univ fun c : Fin 2 => bigSep Finset.univ fun i : Fin 16 => iprop(A c i ∗ B c i ∗ C c i))
      = iprop((bigSep Finset.univ fun c : Fin 2 => bigSep Finset.univ fun i : Fin 16 => A c i)
          ∗ (bigSep Finset.univ fun c : Fin 2 => bigSep Finset.univ fun i : Fin 16 => B c i)
          ∗ (bigSep Finset.univ fun c : Fin 2 => bigSep Finset.univ fun i : Fin 16 => C c i)) := by
  rw [show (bigSep Finset.univ fun c : Fin 2 => bigSep Finset.univ fun i : Fin 16 => iprop(A c i ∗ B c i ∗ C c i))
      = bigSep Finset.univ fun c : Fin 2 => iprop((bigSep Finset.univ fun i : Fin 16 => A c i) ∗ (bigSep Finset.univ fun i : Fin 16 => B c i)
          ∗ (bigSep Finset.univ fun i : Fin 16 => C c i)) from bigSep_congr fun c _ => by rw [bigSep_sep', bigSep_sep'],
    bigSep_sep', bigSep_sep']

theorem vecSplit : (K (F := F)).VecSplit' (P m) 0 := by
  intro d c
  show (bigSep Finset.univ fun i : Fin 16 => goRes m d (Fin.cast nCore_zero c) i) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ bigSep Finset.univ fun i : Fin 16 => tdRes m d (Fin.cast nCore_zero c) i))
  rw [bigSep_tasks (F := F) (fun i => goRes m d (Fin.cast nCore_zero c) i), bigSep_tasks (F := F) (fun i => tdRes m d (Fin.cast nCore_zero c) i)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call is handed for both SparseCores: the titles by blocks, the table by shares, the result by blocks. -/
theorem st0_eq (d : Dev nD) : (bigSep Finset.univ fun c : Fin ((K (F := F)).nCore 0) => (P m).st 0 d c)
    = iprop((bigSep Finset.univ fun c : Fin 2 => bigSep Finset.univ fun i : Fin 16 => iBlkPts m d (wid c i))
        ∗ (bigSep Finset.univ fun c : Fin 2 => bigSep Finset.univ fun i : Fin 16 => xShPts m d c i)
        ∗ (bigSep Finset.univ fun c : Fin 2 => bigSep Finset.univ fun i : Fin 16 => oBlkPts d (wid c i) (m (oLoc d)))) :=
  (bigSep_cores (F := F) (fun c => bigSep Finset.univ fun i : Fin 16 => goRes m d c i)).trans (bigSep_three _ _ _)
/-- What it hands back: the same, the result at the looked-up rows. -/
theorem dn0_eq (d : Dev nD) : (bigSep Finset.univ fun c : Fin ((K (F := F)).nCore 0) => (P m).dn 0 d c)
    = iprop((bigSep Finset.univ fun c : Fin 2 => bigSep Finset.univ fun i : Fin 16 => iBlkPts m d (wid c i))
        ∗ (bigSep Finset.univ fun c : Fin 2 => bigSep Finset.univ fun i : Fin 16 => xShPts m d c i)
        ∗ (bigSep Finset.univ fun c : Fin 2 => bigSep Finset.univ fun i : Fin 16 => oBlkPts d (wid c i) (G m d))) :=
  (bigSep_cores (F := F) (fun c => bigSep Finset.univ fun i : Fin 16 => tdRes m d c i)).trans (bigSep_three _ _ _)

abbrev FIN (d : Dev nD) : sProp 𝕄 := iprop(iPts m d ∗ xPts m d ∗ oPts d (G m d))

/-- @main on device `d`'s TensorCore: the one call, from the titles, the table and the result array; the titles and the
    table kept, the result at the looked-up rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iapply (Entails.of_eq (iPts_blks (F := F) d _)); iexact Hi
    isplitl [Hx]; · iapply (Entails.of_eq (xPts_shares (F := F) d _)); iexact Hx
    iapply (Entails.of_eq (oPts_blks (F := F) d _)); iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iapply (Entails.of_eq (iPts_blks (F := F) d _).symm); iexact Hi
  isplitl [Hx]; · iapply (Entails.of_eq (xPts_shares (F := F) d _).symm); iexact Hx
  iapply (Entails.of_eq (oPts_blks (F := F) d _).symm); iexact Ho

def fq (d : Dev nD) (s' : Phys nD τ sig (Elt F)) : Prop :=
  s'.mem.mem (oLoc d) = G m d ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = G m c ∧ r.2.mem (iLoc c) = m (iLoc c) ∧ r.2.mem (xLoc c) = m (xLoc c)

/-- Every weakly fair execution of the program from a memory whose titles name rows of the table ends, faulting nowhere,
    with the result array at the looked-up rows and the two arguments as they were. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelRun
end
-- ==== Proof.KernelIdealValue.lean ====
/-
  What one tile's three copies leave in its block of the result.

  The tile at SparseCore `c`, subcore `i` works on block `w = 2 i + c`: it fetches titles `512 w … 512 w + 511`
  into its list, gathers into its row buffer the table rows those titles name — entry `(p, j)` of the buffer is entry
  `(titles (512 w + p), j)` of the table, every title at most 100000 and so a row of the table — and writes the buffer
  to rows `512 w … 512 w + 511` of the result. Entry `(r, j)` of that block is therefore `table (titles r, j)`: the
  lookup, on the block. Pure data movement: the statement holds for every reading of the float words.
-/
import proofs.«211589_g25898652795061_cont_9to1_1519_3_alg».proof.KernelIdeal
import proofs.«211589_g25898652795061_cont_9to1_1519_3_alg».proof.Proof.Gen.KernelIdeal
import proofs.«211589_g25898652795061_cont_9to1_1519_3_alg».proof.Proof.Spec
import Idealize.ShloMosaic.Lib.SparseCore.Stream
import Idealize.ShloMosaic.Lib.Writes
import Idealize.ShloMosaic.Lib.ValueIdx

noncomputable section

namespace Cert.Proof.KernelIdealRun

open Cert.KernelIdeal Cert.KernelIdeal.Gen

open Idealize.ShloMosaic
open Idealize.ShloMosaic.SparseCore (S V T)
open Idealize.ShloMosaic.ValueIdx

variable {F : FTy → Type}

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100001x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

abbrev cV (L : grid0.Coords) : Fin τ.nSC := (L 0).castLE hcore0
abbrev jV (L : grid0.Coords) : Fin τ.nSub := (L 1).castLE hsub0

abbrev iblkK (L : grid0.Coords) : Rect S16384 := Rect.unit (s := S16384) (k0_off1 L) S512.size (k0_off1_inb L)
abbrev oblkK (L : grid0.Coords) : Rect S16384x128 := Rect.unit (s := S16384x128) (k0_off2 L) S512x128.size (k0_off2_inb L)
/-- The tile's block of the titles and of the result, and the whole table, as the task addresses them. -/
abbrev iBlkK (L : grid0.Coords) : Memref sig .scVector .hbm S512 .i32 := (iV).slice (iblkK L) (fun _ => rfl)
abbrev oBlkK (L : grid0.Coords) : Memref sig .scVector .hbm S512x128 .f32 := (oV).slice (oblkK L) (fun _ => rfl)
abbrev xAllK : Memref sig .scVector .hbm S100001x128 .f32 := (xV).slice (Rect.unit (s := S100001x128) ![0, 0] S100001x128.size inb_S100001x128_S100001x128_0_0) (fun _ => rfl)

/-! ## What a tile's three copies leave in its block of the result -/

section Value

/-- The whole rectangle places an index at itself. -/
theorem whole_emb {s : Shape} (j : (Rect.whole s).shape.Idx) : (Rect.whole s).emb j = j :=
  funext fun a => Fin.ext (by simp [Rect.whole])

variable {sig' : RefSig} {κ : Kind} {sp : Space} {s : Shape} {e : EltTy} {Val : EltTy → Type}

/-- A buffer written whole through a view reads back, through that view, as what was written. -/
theorem read_writes_whole (v : View sig' κ sp s e) (f : v.ty.Contents Val) (w : s.Idx → Val e) (x : s.Idx) :
    v.read Val (v.writes Val f [⟨Rect.whole s, w⟩]) x = w x := by
  have h := View.read_writes_cons_emb v f (Rect.whole s) w [] x
  rwa [whole_emb] at h

end Value

variable (d : Dev nD) (L : grid0.Coords)

/-- Entry `(p, j)` of the tile's block of the result, after the fetch of the tile's titles, the gather of the rows they
    name and the write-out, is entry `j` of the table row that title `512 (2 i + c) + p` names: the looked-up rows. -/
theorem block_value (ti : Buf (Elt F) (iLoc d)) (tb : Buf (Elt F) (xLoc d)) (o0 : Buf (Elt F) (oLoc d))
    (hpre : ∀ j, (ti j).toNat ≤ 100000)
    (fs : Buf (Elt F) ((V d (cV L) (jV L)).loc cc0_scratch0)) (fr : Buf (Elt F) ((V d (cV L) (jV L)).loc cc0_scratch1))
    (hn : S512.numel = S512x128.size gathers_S100001x128_S512x128.axis')
    (hin : ∀ x, ((sV).view.read (Elt F) (View.write (Elt F) (sV).view fs ((iBlkK L).view.read (Elt F) ti) Finset.univ) x).toNat
        < S100001x128.size gathers_S100001x128_S512x128.axis) :
    ∀ y ∈ (oBlkK L).view.set,
      (oBlkK L).view.writes (Elt F) o0 [⟨Rect.whole S512x128,
          (rV).view.read (Elt F) ((rV).view.writes (Elt F) fr [⟨Rect.whole S512x128,
            SparseCore.gatherPayload gathers_S100001x128_S512x128 ((xAllK).view.read (Elt F) tb)
              (SparseCore.rows ((sV).view.read (Elt F) (View.write (Elt F) (sV).view fs ((iBlkK L).view.read (Elt F) ti) Finset.univ)) hn hin)⟩])⟩] y
        = Cert.Lookup.rows ti tb y := by
  intro y hy
  obtain ⟨y', -, rfl⟩ := Finset.mem_map.mp hy
  have e1 : ∀ (f : Buf (Elt F) (oLoc d)), f ((oBlkK L).view.emb y') = (oBlkK L).view.read (Elt F) f y' :=
    fun f => ((View.read_apply _ _).trans (cast_eq _ _)).symm
  refine (e1 _).trans ?_
  rw [read_writes_whole]
  refine (read_writes_whole (Val := Elt F) (rV).view fr _ y').trans ?_
  show (xAllK).view.read (Elt F) tb (gathers_S100001x128_S512x128.idx _ y') = _
  refine ((View.read_apply _ _).trans (cast_eq _ _)).trans ?_
  show tb _ = tb _
  congr 1
  funext a
  refine Fin.ext ?_
  match a with
  | ⟨0, _⟩ =>
    have hj : ∀ k' : Fin S512.numel, ((S512.rowMajor.symm k') 0).val = k'.val := fun k' => by
      have := Shape.rowMajor_val_one (S512.rowMajor.symm k')
      rw [Equiv.apply_symm_apply] at this
      exact this.symm
    have hoffs : ∀ j, (sV).view.read (Elt F) (View.write (Elt F) (sV).view fs ((iBlkK L).view.read (Elt F) ti) Finset.univ) j
        = ti ((iBlkK L).view.emb j) := fun j => by
      rw [View.write_whole_univ]
      exact (View.read_apply _ _).trans (cast_eq _ _)
    show (![0, 0] : Fin 2 → Nat) 0 + 1 * (gathers_S100001x128_S512x128.idx _ y' gathers_S100001x128_S512x128.axis).val = (Lookup.rowOf _).val
    rw [Shape.Gathers.idx_axis, Lookup.rowOf_val (hpre _)]
    show (![0, 0] : Fin 2 → Nat) 0 + 1 * BitVec.toNat ((sV).view.read (Elt F) (View.write (Elt F) (sV).view fs ((iBlkK L).view.read (Elt F) ti) Finset.univ)
      (S512.rowMajor.symm ((y' gathers_S100001x128_S512x128.axis').cast hn.symm))) = _
    rw [hoffs]
    have hidx : (iBlkK L).view.emb (S512.rowMajor.symm ((y' gathers_S100001x128_S512x128.axis').cast hn.symm)) = ix1 ((oBlkK L).view.emb y' 0) := by
      funext b
      refine Fin.ext ?_
      match b with
      | ⟨0, _⟩ =>
        show k0_off1 L 0 + 1 * ((S512.rowMajor.symm ((y' gathers_S100001x128_S512x128.axis').cast hn.symm)) 0).val = k0_off2 L 0 + 1 * (y' 0).val
        rw [hj, k0_off1_eq, k0_off2_eq]
        rfl
    rw [hidx]
    show 0 + 1 * _ = _
    rw [Nat.zero_add, Nat.one_mul]
    rfl
  | ⟨1, _⟩ =>
    show (![0, 0] : Fin 2 → Nat) 1 + 1 * (gathers_S100001x128_S512x128.idx _ y' 1).val = (k0_off2 L 1 + 1 * (y' 1).val)
    rw [Shape.Gathers.idx_of_ne _ _ _ 1 (by decide), k0_off2_eq]
    rfl

end Cert.Proof.KernelIdealRun

end
-- ==== Proof.KernelIdealRun.lean ====
/-
  The program's run: every weakly fair execution ends, faults nowhere, leaves the titles and the table as they were,
  and leaves in the result array the looked-up rows, `result (r, j) = table (titles r, j)`.

  Thirty-two tiles — two SparseCores, sixteen subcores each — run the same three copies at once, tile `(c, i)` on
  block `2 i + c` of the 32 blocks of 512 rows the titles and the result are cut into. The blocks are disjoint and
  cover both arrays, so each tile owns its block of the titles and of the result outright; the table is read by all,
  each tile holding one of 32 shares of it. A tile waits only on its own three semaphores, each for the copy it has
  just started, so no tile waits on another and nothing can block. A gather stops at a title that names no row: the
  claim's domain, every title in `[0, 100000]`, rules that out. The result's blocks, each at the looked-up rows
  (the value lemma of the companion module), join to the whole array at the looked-up rows.
-/
import proofs.«211589_g25898652795061_cont_9to1_1519_3_alg».proof.KernelIdeal
import proofs.«211589_g25898652795061_cont_9to1_1519_3_alg».proof.Proof.Gen.KernelIdeal
import proofs.«211589_g25898652795061_cont_9to1_1519_3_alg».proof.Proof.Gen.KernelIdeal.Skeleton
import proofs.«211589_g25898652795061_cont_9to1_1519_3_alg».proof.Proof.Spec
import proofs.«211589_g25898652795061_cont_9to1_1519_3_alg».proof.Proof.KernelIdealValue
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The looked-up rows, as the contents of the result array. -/
abbrev G (d : Dev nD) : Buf (Elt F) (oLoc d) := Cert.Lookup.rows (m (iLoc d)) (m (xLoc d))

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100001x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-! ## The thirty-two blocks

The titles and the result are cut along their first axis into 32 blocks of 512 rows; the tile at
SparseCore `c`, subcore `i` works on block `2 i + c`. -/

theorem idiv : 32 ∣ S16384.size 0 := ⟨512, rfl⟩
theorem odiv : 32 ∣ S16384x128.size 0 := ⟨512, rfl⟩
abbrev iblk (w : Fin 32) : Rect S16384 := Rect.part (s := S16384) (a₀ := 0) idiv w
abbrev oblk (w : Fin 32) : Rect S16384x128 := Rect.part (s := S16384x128) (a₀ := 0) odiv w
abbrev iBlkSet (w : Fin 32) : Finset S16384.Idx := ((iV).view.slice (iblk w)).set
abbrev oBlkSet (w : Fin 32) : Finset S16384x128.Idx := ((oV).view.slice (oblk w)).set

/-- The block of the tile at SparseCore `c`, subcore `i`. -/
def wid (c : Fin 2) (i : Fin 16) : Fin 32 := ⟨2 * i.val + c.val, by omega⟩

/-- Tile `(c, i)`'s share of the table: the full share cut in two for the SparseCores, each half in sixteen. -/
abbrev xq (c : Fin 2) (i : Fin 16) : PosShare TreeShare :=
  pieceOf (pieceOf fullShare 2 (by decide) c) 16 (by decide) i

variable [FloatOps F]

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iBlkPts (d : Dev nD) (w : Fin 32) : sProp 𝕄 := iLoc d ↦[iBlkSet w]{fullShare} m (iLoc d)
abbrev xShPts (d : Dev nD) (c : Fin 2) (i : Fin 16) : sProp 𝕄 := xLoc d ↦{xq c i} m (xLoc d)
abbrev oBlkPts (d : Dev nD) (w : Fin 32) (f : Buf (Elt F) (oLoc d)) : sProp 𝕄 := oLoc d ↦[oBlkSet w]{fullShare} f

/-- What a tile is handed and what it hands back: its block of the titles, its share of the table, and its block
    of the result — at the launch contents going in, at the looked-up rows coming out. -/
abbrev goRes (d : Dev nD) (c : Fin 2) (i : Fin 16) : sProp 𝕄 :=
  iprop(iBlkPts m d (wid c i) ∗ xShPts m d c i ∗ oBlkPts d (wid c i) (m (oLoc d)))
abbrev tdRes (d : Dev nD) (c : Fin 2) (i : Fin 16) : sProp 𝕄 :=
  iprop(iBlkPts m d (wid c i) ∗ xShPts m d c i ∗ oBlkPts d (wid c i) (G m d))

/-- A SparseCore is handed its sixteen tiles' resources, and hands them back. -/
def P : (K (F := F)).Pay (nD := nD) (Val := Elt F) (Name := ℕ) (U := UU) where
  st := fun q d c => match q with | 0 => bigSep Finset.univ fun i : Fin 16 => goRes m d (Fin.cast nCore_zero c) i
  dn := fun q d c => match q with | 0 => bigSep Finset.univ fun i : Fin 16 => tdRes m d (Fin.cast nCore_zero c) i
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goRes m d (Fin.cast nCore_zero c) i))
  dn q d c := match q with
    | 0 => (inferInstance : BI.Storable (upEmb : UEmb _ 𝕄) (bigSep Finset.univ fun i : Fin 16 => tdRes m d (Fin.cast nCore_zero c) i))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

/-- What the proof asks of the launch memory: every title names a row of the table. -/
def PreOK : Prop := ∀ (d : Dev nD) (j : S16384.Idx), (m (iLoc d) j).toNat ≤ 100000

/-! ## One tile's task -/

section Tile

variable (d : Dev nD) (L : grid0.Coords)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

omit [FloatOps F] in
/-- The task's offset `512 · (2 i + c)` is block `2 i + c` of the cut into 32. -/
theorem iblkK_eq : iblkK L = iblk (wid (cL L) (jL L)) := by
  unfold iblkK iblk Rect.part Rect.block
  congr 1 <;> funext a
  · rw [k0_off1_eq]
    match a with
    | 0 => simp [Shape.partIx, Shape.partSize, wid]; omega
  · match a with
    | 0 => simp [Shape.partSize]
omit [FloatOps F] in
theorem oblkK_eq : oblkK L = oblk (wid (cL L) (jL L)) := by
  unfold oblkK oblk Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_iBlkK : (iBlkK L).view.set = iBlkSet (wid (cL L) (jL L)) := by
  show ((iV).view.slice (iblkK L)).set = ((iV).view.slice (iblk (wid (cL L) (jL L)))).set
  rw [iblkK_eq]
omit [FloatOps F] in
theorem set_oBlkK : (oBlkK L).view.set = oBlkSet (wid (cL L) (jL L)) := by
  show ((oV).view.slice (oblkK L)).set = ((oV).view.slice (oblk (wid (cL L) (jL L)))).set
  rw [oblkK_eq]

omit [FloatOps F] in
theorem pts_iBlkK (f : Buf (Elt F) (iLoc d)) :
    ((iBlkK L).view.loc (V d (cV L) (jV L)) ↦[(iBlkK L).view.set]{fullShare} f : sProp 𝕄) = iLoc d ↦[iBlkSet (wid (cL L) (jL L))]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[oBlkSet (wid (cL L) (jL L))]{fullShare} f := by
  rw [set_oBlkK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The rows the stream reads are rows of the table: what the title fetch landed in the list's scratch is the tile's
    block of the titles, each at most 100000. -/
theorem inb_of_pre (hpre : PreOK m) (fs : Buf (Elt F) ((V d (cV L) (jV L)).loc cc0_scratch0)) (pay : S512.Idx → Elt F .i32)
    (hpay : pay = (iBlkK L).view.read (Elt F) (m (iLoc d))) :
    ∀ x, ((sV).view.read (Elt F) (View.write (Elt F) (sV).view fs pay Finset.univ) x).toNat < S100001x128.size gathers_S100001x128_S512x128.axis := by
  subst hpay; intro x
  rw [View.write_whole_univ]
  simp only [Memref.view_whole, View.read_whole]
  rw [show ∀ j, (iBlkK L).view.read (Elt F) (m (iLoc d)) j = m (iLoc d) ((iBlkK L).view.emb j) from fun j => (View.read_apply _ _).trans (cast_eq _ _)]
  exact Nat.lt_succ_of_le (hpre d _)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goRes m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            sV (Memref.isWhole_whole _) rV (Memref.isWhole_whole _) cc0_scratch2 cc0_scoped0 cc0_scoped1)
          fun _ => iprop(tdRes m d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  have hin := fun fs => inb_of_pre m d L hpre fs _ rfl
  sl_exec
  sl_step
  isplitl [Hi' Hx' Ho']
  · isplitl [Hi']; · iapply (Entails.of_eq (pts_iBlkK (F := F) d L _)); iexact Hi'
    isplitl [Hx']; · iexact Hx'
    iapply (Entails.of_eq ((pointsTo_congr (ℓ := (oBlkK L).view.loc (V d (cV L) (jV L))) (I := (oBlkK L).view.set) (q := fullShare) (g := G m d)
        (block_value d L (m (iLoc d)) (m (xLoc d)) (m (oLoc d)) (hpre d) fs fr _ (hin fs))).trans (pts_oBlkK (F := F) d L (G m d))))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The blocks split and join; the shares of the table -/

/-- Tiles and blocks correspond one to one: block `w` is the tile at SparseCore `w mod 2`, subcore `w / 2`. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

omit [FloatOps F] in
theorem iBlkSet_eq (w : Fin 32) : iBlkSet w = (iblk w).set := by
  show ((View.whole (main_arg0_scv : Ref sig .scVector)).slice (iblk w)).set = _
  rw [View.set_slice]; exact Finset.map_refl
omit [FloatOps F] in
theorem oBlkSet_eq (w : Fin 32) : oBlkSet w = (oblk w).set := by
  show ((View.whole (main_v0_scv : Ref sig .scVector)).slice (oblk w)).set = _
  rw [View.set_slice]; exact Finset.map_refl
omit [FloatOps F] in
theorem iblks_disjoint : ∀ i ∈ (Finset.univ : Finset (Fin 32)), ∀ j ∈ (Finset.univ : Finset (Fin 32)), i ≠ j → Disjoint (iBlkSet i) (iBlkSet j) :=
  fun i _ j _ h => by rw [iBlkSet_eq, iBlkSet_eq]; exact Rect.part_disjoint idiv h
omit [FloatOps F] in
theorem oblks_disjoint : ∀ i ∈ (Finset.univ : Finset (Fin 32)), ∀ j ∈ (Finset.univ : Finset (Fin 32)), i ≠ j → Disjoint (oBlkSet i) (oBlkSet j) :=
  fun i _ j _ h => by rw [oBlkSet_eq, oBlkSet_eq]; exact Rect.part_disjoint odiv h
omit [FloatOps F] in
theorem iblks_cover : (Finset.univ : Finset (Fin 32)).biUnion iBlkSet = Finset.univ :=
  (Finset.biUnion_congr rfl fun i _ => iBlkSet_eq i).trans (Rect.biUnion_part idiv)
omit [FloatOps F] in
theorem oblks_cover : (Finset.univ : Finset (Fin 32)).biUnion oBlkSet = Finset.univ :=
  (Finset.biUnion_congr rfl fun i _ => oBlkSet_eq i).trans (Rect.biUnion_part odiv)

omit [FloatOps F] in
/-- A family over the 32 blocks is the family over the SparseCores and their tiles. -/
theorem bigSep_blocks (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

omit [FloatOps F] in
theorem iPts_blks (d : Dev nD) (f : Buf (Elt F) (iLoc d)) :
    (iLoc d ↦{fullShare} f : sProp 𝕄) = bigSep Finset.univ fun c : Fin 2 => bigSep Finset.univ fun i : Fin 16 => iLoc d ↦[iBlkSet (wid c i)]{fullShare} f := by
  rw [← bigSep_blocks (F := F) (fun w => iLoc d ↦[iBlkSet w]{fullShare} f), ← pointsTo_biUnion Finset.univ (ℓ := iLoc d) iBlkSet iblks_disjoint, iblks_cover]; try rfl
omit [FloatOps F] in
theorem oPts_blks (d : Dev nD) (f : Buf (Elt F) (oLoc d)) :
    (oLoc d ↦{fullShare} f : sProp 𝕄) = bigSep Finset.univ fun c : Fin 2 => bigSep Finset.univ fun i : Fin 16 => oLoc d ↦[oBlkSet (wid c i)]{fullShare} f := by
  rw [← bigSep_blocks (F := F) (fun w => oLoc d ↦[oBlkSet w]{fullShare} f), ← pointsTo_biUnion Finset.univ (ℓ := oLoc d) oBlkSet oblks_disjoint, oblks_cover]; try rfl
omit [FloatOps F] in
theorem xPts_shares (d : Dev nD) (f : Buf (Elt F) (xLoc d)) :
    (xLoc d ↦{fullShare} f : sProp 𝕄) = bigSep Finset.univ fun c : Fin 2 => bigSep Finset.univ fun i : Fin 16 => xLoc d ↦{xq c i} f := by
  rw [pointsTo_piecesOf Finset.univ f (o := 2) (by decide) fullShare]
  exact bigSep_congr fun c _ => pointsTo_piecesOf Finset.univ f (o := 16) (by decide) _

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- Three families over cores and tiles, side by side, are the three families apart. -/
theorem bigSep_three (A B C : Fin 2 → Fin 16 → sProp 𝕄) :
    (bigSep Finset.univ fun c : Fin 2 => bigSep Finset.univ fun i : Fin 16 => iprop(A c i ∗ B c i ∗ C c i))
      = iprop((bigSep Finset.univ fun c : Fin 2 => bigSep Finset.univ fun i : Fin 16 => A c i)
          ∗ (bigSep Finset.univ fun c : Fin 2 => bigSep Finset.univ fun i : Fin 16 => B c i)
          ∗ (bigSep Finset.univ fun c : Fin 2 => bigSep Finset.univ fun i : Fin 16 => C c i)) := by
  rw [show (bigSep Finset.univ fun c : Fin 2 => bigSep Finset.univ fun i : Fin 16 => iprop(A c i ∗ B c i ∗ C c i))
      = bigSep Finset.univ fun c : Fin 2 => iprop((bigSep Finset.univ fun i : Fin 16 => A c i) ∗ (bigSep Finset.univ fun i : Fin 16 => B c i)
          ∗ (bigSep Finset.univ fun i : Fin 16 => C c i)) from bigSep_congr fun c _ => by rw [bigSep_sep', bigSep_sep'],
    bigSep_sep', bigSep_sep']

theorem vecSplit : (K (F := F)).VecSplit' (P m) 0 := by
  intro d c
  show (bigSep Finset.univ fun i : Fin 16 => goRes m d (Fin.cast nCore_zero c) i) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ bigSep Finset.univ fun i : Fin 16 => tdRes m d (Fin.cast nCore_zero c) i))
  rw [bigSep_tasks (F := F) (fun i => goRes m d (Fin.cast nCore_zero c) i), bigSep_tasks (F := F) (fun i => tdRes m d (Fin.cast nCore_zero c) i)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call is handed for both SparseCores: the titles by blocks, the table by shares, the result by blocks. -/
theorem st0_eq (d : Dev nD) : (bigSep Finset.univ fun c : Fin ((K (F := F)).nCore 0) => (P m).st 0 d c)
    = iprop((bigSep Finset.univ fun c : Fin 2 => bigSep Finset.univ fun i : Fin 16 => iBlkPts m d (wid c i))
        ∗ (bigSep Finset.univ fun c : Fin 2 => bigSep Finset.univ fun i : Fin 16 => xShPts m d c i)
        ∗ (bigSep Finset.univ fun c : Fin 2 => bigSep Finset.univ fun i : Fin 16 => oBlkPts d (wid c i) (m (oLoc d)))) :=
  (bigSep_cores (F := F) (fun c => bigSep Finset.univ fun i : Fin 16 => goRes m d c i)).trans (bigSep_three _ _ _)
/-- What it hands back: the same, the result at the looked-up rows. -/
theorem dn0_eq (d : Dev nD) : (bigSep Finset.univ fun c : Fin ((K (F := F)).nCore 0) => (P m).dn 0 d c)
    = iprop((bigSep Finset.univ fun c : Fin 2 => bigSep Finset.univ fun i : Fin 16 => iBlkPts m d (wid c i))
        ∗ (bigSep Finset.univ fun c : Fin 2 => bigSep Finset.univ fun i : Fin 16 => xShPts m d c i)
        ∗ (bigSep Finset.univ fun c : Fin 2 => bigSep Finset.univ fun i : Fin 16 => oBlkPts d (wid c i) (G m d))) :=
  (bigSep_cores (F := F) (fun c => bigSep Finset.univ fun i : Fin 16 => tdRes m d c i)).trans (bigSep_three _ _ _)

abbrev FIN (d : Dev nD) : sProp 𝕄 := iprop(iPts m d ∗ xPts m d ∗ oPts d (G m d))

/-- @main on device `d`'s TensorCore: the one call, from the titles, the table and the result array; the titles and the
    table kept, the result at the looked-up rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iapply (Entails.of_eq (iPts_blks (F := F) d _)); iexact Hi
    isplitl [Hx]; · iapply (Entails.of_eq (xPts_shares (F := F) d _)); iexact Hx
    iapply (Entails.of_eq (oPts_blks (F := F) d _)); iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iapply (Entails.of_eq (iPts_blks (F := F) d _).symm); iexact Hi
  isplitl [Hx]; · iapply (Entails.of_eq (xPts_shares (F := F) d _).symm); iexact Hx
  iapply (Entails.of_eq (oPts_blks (F := F) d _).symm); iexact Ho

def fq (d : Dev nD) (s' : Phys nD τ sig (Elt F)) : Prop :=
  s'.mem.mem (oLoc d) = G m d ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = G m c ∧ r.2.mem (iLoc c) = m (iLoc c) ∧ r.2.mem (xLoc c) = m (xLoc c)

/-- Every weakly fair execution of the program from a memory whose titles name rows of the table ends, faulting nowhere,
    with the result array at the looked-up rows and the two arguments as they were. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealRun
end
-- ==== Proof.lean ====
/-
  The claim: an embedding lookup on the SparseCores against `take(table, titles, axis = 0)`.

  Both programs compute `result (r, j) = table (titles r, j)` for titles in `[0, 100000]`, the claim's domain:
  the kernel by thirty-two tiles that each fetch 512 titles, gather the rows they name and write them to their block of
  the result; the reference by a gather whose negative-index wrap and out-of-range fill never apply on that domain.
  Nothing is computed on the float words, so the two results are equal at every reading of them, the extended reals
  among them, and the frames are the runs with the result dropped. The idealization rewrote nothing, so `preserves`
  has no conjunct.
-/
import proofs.«211589_g25898652795061_cont_9to1_1519_3_alg».proof.Defs
import proofs.«211589_g25898652795061_cont_9to1_1519_3_alg».proof.Proof.Gen.Kernel
import proofs.«211589_g25898652795061_cont_9to1_1519_3_alg».proof.Proof.Gen.Kernel.Skeleton
import proofs.«211589_g25898652795061_cont_9to1_1519_3_alg».proof.Proof.Gen.KernelIdeal
import proofs.«211589_g25898652795061_cont_9to1_1519_3_alg».proof.Proof.Gen.KernelIdeal.Skeleton
import proofs.«211589_g25898652795061_cont_9to1_1519_3_alg».proof.Proof.Gen.ReferenceIdeal
import proofs.«211589_g25898652795061_cont_9to1_1519_3_alg».proof.Proof.Gen.Pre_input_domain
import proofs.«211589_g25898652795061_cont_9to1_1519_3_alg».proof.Proof.PreRange
import proofs.«211589_g25898652795061_cont_9to1_1519_3_alg».proof.Proof.RefRun
import proofs.«211589_g25898652795061_cont_9to1_1519_3_alg».proof.Proof.KernelRun
import proofs.«211589_g25898652795061_cont_9to1_1519_3_alg».proof.Proof.KernelIdealRun
import Idealize.ShloMosaic.Adequacy
import Idealize.ShloMosaic.Init

noncomputable section

namespace Cert.Proof

open Idealize.ShloMosaic Idealize.SL.Sem

/-- On the claim's domain every title names a row of the table: the kernel as printed, -/
theorem ok_Kernel (m : (ℓ : Loc Cert.Kernel.nD Cert.Kernel.τ Cert.Kernel.sig) → Buf (Elt Bits) ℓ) (h : Cert.Pre_Kernel m) :
    KernelRun.PreOK (F := Bits) m := fun d j => Cert.Lookup.range_of_pre _ _ (h d) j

/-- and the idealized kernel. -/
theorem ok_KernelIdeal (m : (ℓ : Loc Cert.KernelIdeal.nD Cert.KernelIdeal.τ Cert.KernelIdeal.sig) → Buf (Elt Ideal) ℓ)
    (h : Cert.Pre_KernelIdeal m) : KernelIdealRun.PreOK (F := Ideal) m := fun d j => Cert.Lookup.range_of_pre _ _ (h d) j

/-- The kernel's run with the result dropped. -/
theorem frame_p : Cert.frame_Kernel := fun m ρ hpre =>
  (θ_run Cert.Kernel.defs _ _).mono (fun _ h c => (h c).2) (KernelRun.run_main (F := Bits) m ρ (ok_Kernel m hpre))

theorem frame_pi : Cert.frame_KernelIdeal := fun m ρ hpre =>
  (θ_run Cert.KernelIdeal.defs _ _).mono (fun _ h c => (h c).2) (KernelIdealRun.run_main (F := Ideal) m ρ (ok_KernelIdeal m hpre))

/-- The reference's run with the result dropped. -/
theorem frame_ri : Cert.frame_ReferenceIdeal := fun m g hpre =>
  (θ_run Cert.ReferenceIdeal.defs _ _).mono (fun _ h c => (h c).2)
    (Cert.Lookup.Ref.run (F := Ideal) m g fun c j => Cert.Lookup.range_of_pre _ _ (hpre c) j)

theorem preserves : Cert.preserves_Kernel_KernelIdeal := trivial

/-- Both runs end with the result at the lookup of their own arguments; the arguments agree. -/
theorem algebraic : Cert.algebraic_KernelIdeal_ReferenceIdeal := by
  intro m g m' g' hpre hagree
  refine ⟨fun c => KernelIdealRun.G m c, KernelIdealRun.run_main (F := Ideal) m g (ok_KernelIdeal m hpre), ?_⟩
  refine (θ_run Cert.ReferenceIdeal.defs _ _).mono (fun _ h c => ⟨(h c).1.trans ?_, (h c).2⟩)
    (Cert.Lookup.Ref.run (F := Ideal) m' g' fun c j => ?_)
  · rw [(hagree c).1]
    exact ok_KernelIdeal m hpre c j
  · rw [(hagree c).1, (hagree c).2]

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
